-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S_ : Shape := ⟨0, ![]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S2x50000x128 .f32) (main_arg1 : IVec S2x800000 32) (main_arg2 : FVec F S800000x1 .f32) (main_arg3 : FVec F S128x128 .f32) (main_arg4 : FVec F S128 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S2x50000x128 : Shape := ⟨3, ![2, 50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S100000x128 : Shape := ⟨2, ![100000, 128]⟩
abbrev S5000x128 : Shape := ⟨2, ![5000, 128]⟩
abbrev S1x128 : Shape := ⟨2, ![1, 128]⟩
abbrev S50000x2x128 : Shape := ⟨3, ![50000, 2, 128]⟩
abbrev S50000x256 : Shape := ⟨2, ![50000, 256]⟩
abbrev S850000x256 : Shape := ⟨2, ![850000, 256]⟩
abbrev S2000x256 : Shape := ⟨2, ![2000, 256]⟩

abbrev nBuf : Space → Nat
  | .hbm => 72
  | .vmem => 10
  | .smem => 0
  | _ => 0

abbrev bufTy : (tb : Table) → Fin (tcTables nBuf tb) → BufTy
  | .hbm, ⟨0, _⟩ => ⟨S2x50000x128, .f32⟩
  | .hbm, ⟨1, _⟩ => ⟨S2x800000, .i32⟩
  | .hbm, ⟨2, _⟩ => ⟨S800000x1, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S100000x128, .f32⟩
  | .hbm, ⟨49, _⟩ => ⟨S100000x128, .f32⟩
  | .hbm, ⟨50, _⟩ => ⟨S2x50000x128, .f32⟩
  | .hbm, ⟨51, _⟩ => ⟨S50000x2x128, .f32⟩
  | .hbm, ⟨52, _⟩ => ⟨S50000x256, .f32⟩
  | .hbm, ⟨53, _⟩ => ⟨S850000x1, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x256, .f32⟩
  | .hbm, ⟨64, _⟩ => ⟨S850000x256, .f32⟩
  | .hbm, ⟨65, _⟩ => ⟨S_, .f32⟩
  | .hbm, ⟨66, _⟩ => ⟨S50000x256, .f32⟩
  | .hbm, ⟨67, _⟩ => ⟨S850000x1, .i32⟩
  | .hbm, ⟨68, _⟩ => ⟨S50000x256, .f32⟩
  | .hbm, ⟨69, _⟩ => ⟨S50000x256, .f32⟩
  | .hbm, ⟨70, _⟩ => ⟨S50000x2x128, .f32⟩
  | .hbm, ⟨71, _⟩ => ⟨S2x50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  shapeCasts_S800000x1_S800000 : S800000x1.ShapeCasts S800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  shapeCasts_S2x50000x128_S100000x128 : S2x50000x128.ShapeCasts S100000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S100000x128_S2x50000x128 : S100000x128.ShapeCasts S2x50000x128
  transposes_S2x50000x128_S50000x2x128_1_0_2 : S2x50000x128.Transposes [1, 0, 2] S50000x2x128
  shapeCasts_S50000x2x128_S50000x256 : S50000x2x128.ShapeCasts S50000x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  shapeCasts_S50000x256_S50000x2x128 : S50000x256.ShapeCasts S50000x2x128
  transposes_S50000x2x128_S2x50000x128_1_0_2 : S50000x2x128.Transposes [1, 0, 2] S2x50000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2000x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S2x50000x128 : Shape := ⟨3, ![2, 50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x1x128 : Shape := ⟨3, ![1, 1, 128]⟩
abbrev S50000x2x128 : Shape := ⟨3, ![50000, 2, 128]⟩
abbrev S50000x256 : Shape := ⟨2, ![50000, 256]⟩
abbrev S850000x256 : Shape := ⟨2, ![850000, 256]⟩

abbrev nBuf : Space → Nat
  | .hbm => 75
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S2x800000, .i32⟩
  | .hbm, ⟨2, _⟩ => ⟨S800000x1, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S2x50000x128, .f32⟩
  | .hbm, ⟨49, _⟩ => ⟨S1x1x128, .f32⟩
  | .hbm, ⟨50, _⟩ => ⟨S2x50000x128, .f32⟩
  | .hbm, ⟨51, _⟩ => ⟨S2x50000x128, .f32⟩
  | .hbm, ⟨52, _⟩ => ⟨S50000x2x128, .f32⟩
  | .hbm, ⟨53, _⟩ => ⟨S50000x256, .f32⟩
  | .hbm, ⟨54, _⟩ => ⟨S850000x1, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x256, .f32⟩
  | .hbm, ⟨64, _⟩ => ⟨S850000x256, .f32⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S50000x2x128, .f32⟩
  | .hbm, ⟨71, _⟩ => ⟨S2x50000x128, .f32⟩
  | .hbm, ⟨72, _⟩ => ⟨S_, .f32⟩
  | .hbm, ⟨73, _⟩ => ⟨S2x50000x128, .f32⟩
  | .hbm, ⟨74, _⟩ => ⟨S2x50000x128, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call1_cst : Ref sig .tc := ⟨.hbm, 72, rfl⟩
abbrev main_call1_v0 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  shapeCasts_S800000x1_S800000 : S800000x1.ShapeCasts S800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S128_S1x1x128_2 : S128.BroadcastsInDim S1x1x128 (![2] : Fin 1 → Fin S1x1x128.rank)
  bcast_S1x1x128_S2x50000x128_0_1_2 : S1x1x128.BroadcastsInDim S2x50000x128 (![0, 1, 2] : Fin 3 → Fin S2x50000x128.rank)
  transposes_S2x50000x128_S50000x2x128_1_0_2 : S2x50000x128.Transposes [1, 0, 2] S50000x2x128
  shapeCasts_S50000x2x128_S50000x256 : S50000x2x128.ShapeCasts S50000x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S50000x256_S50000x2x128 : S50000x256.ShapeCasts S50000x2x128
  transposes_S50000x2x128_S2x50000x128_1_0_2 : S50000x2x128.Transposes [1, 0, 2] S2x50000x128
  bcast_S_S2x50000x128 : S_.BroadcastsInDim S2x50000x128 (![] : Fin 0 → Fin S2x50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2x50000x128_S128x128_S2x50000x128_2_1_01_0_n_n_wf : DotDims.WF S2x50000x128 S128x128 S2x50000x128 [2] [1] [0, 1] [0] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2x50000x128_S128x128_S2x50000x128_2_1_01_0_n_n : DotDims S2x50000x128 S128x128 S2x50000x128 where
  lhsContracting := [2]
  rhsContracting := [1]
  lhsNonContracting := [0, 1]
  rhsNonContracting := [0]
  lhsBatch := []
  rhsBatch := []
  wf := dot_S2x50000x128_S128x128_S2x50000x128_2_1_01_0_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KernelRun.lean ====
/-
  The idealized kernel's run with its RESULT named. @main is seven segments: three stretches of host
  operations, the linear-transform region, a stretch, the ReLU region, a last stretch. The buffer contents at
  each boundary are a fold from the launch memory (the generated `W0 … W7`); after the last stretch every
  unscoped buffer holds `W7`'s contents, so the returned array `main_v53` ends at `W7` read at its
  reference, and the five argument arrays end as launched.
-/
import proofs.«171243_j4346506903598_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the returned array holds the last
    boundary's contents at its reference, and each argument array is as launched. -/
theorem run_out : θ_run defs (onTc (τ := τ) (main (F := F))) ⟨m, fun _ => 0, ρ⟩ (fun r => ∀ c : Dev nD,
      r.2.mem ((c.tc : Thread nD τ).loc main_v53) = W7 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v53 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Out

end
-- ==== Proof.Aggregate.lean ====
/-
  The graph convolution's shared pieces, as functions of the argument arrays. Both programs append the
  self-loops `0 … 49999` to the two rows of `edge_index` (`rowsOf`, `colsOf`) and weight one to the edge
  weights, sum the weights into their row's degree, take `deg^(-1/2)` where the degree is positive and zero
  elsewhere, and give edge `e` the weight `dinv[row e] · w e · dinv[col e]` (`normOf`). Given the linearly
  transformed features `xl` as a [2, 50000, 128] array, both lay them out as [50000, 256] rows, gather the row of
  each edge's source, scale it by the edge's weight and add it into the row of the edge's target
  (`aggregateCore`). `linearOut` is the reference's own linear transform, `x · Wᵀ + b` over the feature axis.
  Each is the host operations' own term; none is opened: the two programs are compared through them.
-/
import proofs.«171243_j4346506903598_1_alg».proof.Proof.Gen.ReferenceIdeal

set_option maxRecDepth 8192

noncomputable section

namespace Cert.GraphConv

open Cert.ReferenceIdeal Cert.ReferenceIdeal.Gen Idealize.ShloMosaic Idealize.ShloMosaic.TcCoe Idealize.SL.Sem

variable {F : FTy → Type} [FloatOps F]

/-- The target node of every edge: row 0 of `edge_index`, then the self-loops. -/
def rowsOf (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The source node of every edge: row 1 of `edge_index`, then the self-loops. -/
def colsOf (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- The weight of every edge: `edge_attr`'s one column, then one for each self-loop. -/
def weightsOf (ea : (⟨S800000x1, .f32⟩ : BufTy).Contents (Elt F)) : (⟨S850000, .f32⟩ : BufTy).Contents (Elt F) :=
  concatenate S850000 0 [⟨S800000, (shapeCast _ ea shapeCasts_S800000x1_S800000)⟩, ⟨S50000, (broadcastInDim S50000 ![] bcast_S_S50000 (constant S_ .f32 0x3F800000#32))⟩] concatenates_S800000_S50000_S850000_d0

/-- The weighted degree of every node: the edge weights summed into their target's entry. -/
def degreeOf (rows : (⟨S850000, .i32⟩ : BufTy).Contents (Elt F)) (wts : (⟨S850000, .f32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 rows) wts

/-- Where the degree is positive. -/
def positiveDegree (rows : (⟨S850000, .i32⟩ : BufTy).Contents (Elt F)) (wts : (⟨S850000, .f32⟩ : BufTy).Contents (Elt F)) : (⟨S50000, .i1⟩ : BufTy).Contents (Elt F) :=
  cmpf .ogt (degreeOf rows wts) (broadcastInDim S50000 ![] bcast_S_S50000 (constant S_ .f32 0x00000000#32))

/-- The reciprocal square root of the degree. -/
def rsqrtDegree (rows : (⟨S850000, .i32⟩ : BufTy).Contents (Elt F)) (wts : (⟨S850000, .f32⟩ : BufTy).Contents (Elt F)) : (⟨S50000, .f32⟩ : BufTy).Contents (Elt F) :=
  Host.rsqrt (degreeOf rows wts)

/-- The scalar zero the `where` fills with. -/
def zeroScalar : (⟨S_, .f32⟩ : BufTy).Contents (Elt F) :=
  constant S_ .f32 0x00000000#32

/-- `where(mask, val, fill)` over the nodes, the fill a scalar. -/
def whereOf (mask : (⟨S50000, .i1⟩ : BufTy).Contents (Elt F)) (val : (⟨S50000, .f32⟩ : BufTy).Contents (Elt F)) (fill : (⟨S_, .f32⟩ : BufTy).Contents (Elt F)) : (⟨S50000, .f32⟩ : BufTy).Contents (Elt F) :=
  select mask val (broadcastInDim S50000 ![] bcast_S_S50000 (id fill))

/-- Edge `e`'s weight from the nodes' factors: `dinv[row e] · w e · dinv[col e]` (a negative index wraps once). -/
def normCore (dinv : (⟨S50000, .f32⟩ : BufTy).Contents (Elt F)) (rows cols : (⟨S850000, .i32⟩ : BufTy).Contents (Elt F)) (wts : (⟨S850000, .f32⟩ : BufTy).Contents (Elt F)) : (⟨S850000, .f32⟩ : BufTy).Contents (Elt F) :=
  mulf (mulf (Host.gather gather_S50000_S850000x1_S850000_n_0_n_n_0_1_1 dinv (broadcastInDim S850000x1 ![0] bcast_S850000_S850000x1_0 (select (cmpi .slt rows (broadcastInDim S850000 ![] bcast_S_S850000 (constantI S_ 32 0#32))) (addi rows (broadcastInDim S850000 ![] bcast_S_S850000 (constantI S_ 32 50000#32))) rows))) wts) (Host.gather gather_S50000_S850000x1_S850000_n_0_n_n_0_1_1 dinv (broadcastInDim S850000x1 ![0] bcast_S850000_S850000x1_0 (select (cmpi .slt cols (broadcastInDim S850000 ![] bcast_S_S850000 (constantI S_ 32 0#32))) (addi cols (broadcastInDim S850000 ![] bcast_S_S850000 (constantI S_ 32 50000#32))) cols)))

/-- The symmetric normalisation's weight of every edge. -/
def normOf (ei : (⟨S2x800000, .i32⟩ : BufTy).Contents (Elt F)) (ea : (⟨S800000x1, .f32⟩ : BufTy).Contents (Elt F)) : (⟨S850000, .f32⟩ : BufTy).Contents (Elt F) :=
  normCore (whereOf (positiveDegree (rowsOf ei) (weightsOf ea)) (rsqrtDegree (rowsOf ei) (weightsOf ea)) zeroScalar) (rowsOf ei) (colsOf ei) (weightsOf ea)

/-- The weighted sum of the sources' feature rows into each target's row, both batches side by side. -/
def aggregateCore (rows cols : (⟨S850000, .i32⟩ : BufTy).Contents (Elt F)) (norm : (⟨S850000, .f32⟩ : BufTy).Contents (Elt F)) (xl : (⟨S2x50000x128, .f32⟩ : BufTy).Contents (Elt F)) : (⟨S50000x256, .f32⟩ : BufTy).Contents (Elt F) :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 rows) (mulf (broadcastInDim S850000x256 ![0, 1] bcast_S850000x1_S850000x256_0_1 (broadcastInDim S850000x1 ![0] bcast_S850000_S850000x1_0 norm)) (Host.gather gather_S50000x256_S850000x1_S850000x256_1_0_n_n_0_1_1256 (shapeCast _ (transpose S50000x2x128 [1, 0, 2] xl transposes_S2x50000x128_S50000x2x128_1_0_2) shapeCasts_S50000x2x128_S50000x256) (broadcastInDim S850000x1 ![0] bcast_S850000_S850000x1_0 (select (cmpi .slt cols (broadcastInDim S850000 ![] bcast_S_S850000 (constantI S_ 32 0#32))) (addi cols (broadcastInDim S850000 ![] bcast_S_S850000 (constantI S_ 32 50000#32))) cols))))

/-- The reference's linear transform: the contraction of the feature axis with the weights' input axis, plus the bias. -/
def linearOut (x : (⟨S2x50000x128, .f32⟩ : BufTy).Contents (Elt F)) (w : (⟨S128x128, .f32⟩ : BufTy).Contents (Elt F)) (b : (⟨S128, .f32⟩ : BufTy).Contents (Elt F)) : (⟨S2x50000x128, .f32⟩ : BufTy).Contents (Elt F) :=
  addf (Host.dotGeneral dot_S2x50000x128_S128x128_S2x50000x128_2_1_01_0_n_n none x w) (broadcastInDim S2x50000x128 ![0, 1, 2] bcast_S1x1x128_S2x50000x128_0_1_2 (broadcastInDim S1x1x128 ![2] bcast_S128_S1x1x128_2 b))

end Cert.GraphConv

end
-- ==== Proof.Linear.lean ====
/-
  The linear-transform region's value. The grid has 20 points; point `t` stages rows
  `5000·t … 5000·t + 4999` of the [100000, 128] operand, the whole [128, 128] weight matrix and the whole
  [128] bias, and writes back to the same rows of the result the product of the block with the transposed
  weights plus the bias on every row. At the exact arithmetic a change of float format is the identity and the
  matrix product into a zero accumulator is the plain sum, so entry (r, o) of a written block is
  `Σ_k x[r, k] · W[o, k] + b[o]`. The 20 blocks tile the result, so after the region the result array is that
  function of the three arrays as the region found them.
-/
import proofs.«171243_j4346506903598_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- Row `r` of `x` against row `o` of `w`, summed over the 128 features, plus `b o`. -/
def linearRows (x : S100000x128.Idx → EReal) (w : S128x128.Idx → EReal) (b : S128.Idx → EReal) : S100000x128.Idx → EReal :=
  fun i => (∑ k : Fin 128, x (ix2 (⟨(i 0).val, (i 0).isLt⟩ : Fin 100000) k) * w (ix2 (⟨(i 1).val, (i 1).isLt⟩ : Fin 128) k))
    + b (ix1 (⟨(i 1).val, (i 1).isLt⟩ : Fin 128))

/-- `linearRows` at an index whose coordinates are `r` and `o`. -/
theorem linearRows_apply (x : S100000x128.Idx → EReal) (w : S128x128.Idx → EReal) (b : S128.Idx → EReal)
    (i : S100000x128.Idx) (r : Fin 100000) (o : Fin 128) (hr : (i 0).val = r.val) (ho : (i 1).val = o.val) :
    linearRows x w b i = (∑ k : Fin 128, x (ix2 r k) * w (ix2 o k)) + b (ix1 o) := by
  have er : (⟨(i 0).val, (i 0).isLt⟩ : Fin 100000) = r := Fin.ext hr
  have eo : (⟨(i 1).val, (i 1).isLt⟩ : Fin 128) = o := Fin.ext ho
  unfold linearRows
  rw [er, eo]

/-- The product's operand indices at an output index `j` and a contraction index `κ`: the left operand is read at
    row `j 0` and feature `κ`, the right at first coordinate `κ` and column `j 1`. -/
theorem lhs_row (j : S5000x128.Idx) (κ : dot_S5000x128_S128x128_S5000x128_1_0_0_1_n_n.contr.Idx) : (dot_S5000x128_S128x128_S5000x128_1_0_0_1_n_n.lhsIdx j κ 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_feature (j : S5000x128.Idx) (κ : dot_S5000x128_S128x128_S5000x128_1_0_0_1_n_n.contr.Idx) : (dot_S5000x128_S128x128_S5000x128_1_0_0_1_n_n.lhsIdx j κ 1).val = (κ ⟨0, by decide⟩).val :=
  dot_S5000x128_S128x128_S5000x128_1_0_0_1_n_n.lhsIdx_val_of_single rfl j κ
theorem rhs_feature (j : S5000x128.Idx) (κ : dot_S5000x128_S128x128_S5000x128_1_0_0_1_n_n.contr.Idx) : (dot_S5000x128_S128x128_S5000x128_1_0_0_1_n_n.rhsIdx j κ 0).val = (κ ⟨0, by decide⟩).val :=
  dot_S5000x128_S128x128_S5000x128_1_0_0_1_n_n.rhsIdx_val_of_single rfl j κ
theorem rhs_column (j : S5000x128.Idx) (κ : dot_S5000x128_S128x128_S5000x128_1_0_0_1_n_n.contr.Idx) : (dot_S5000x128_S128x128_S5000x128_1_0_0_1_n_n.rhsIdx j κ 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product of a block with the transposed weights, at entry (p, q): the sum over `k` of the block's
    (p, k) times the weights' (q, k). -/
theorem product_apply (a : FVec Ideal S5000x128 .bf16) (wt : FVec Ideal S128x128 .bf16) (p : Fin 5000) (q : Fin 128) :
    matmul (F := Ideal) dot_S5000x128_S128x128_S5000x128_1_0_0_1_n_n none a (transpose S128x128 [1, 0] wt transposes_S128x128_p1_0_S128x128) (constant S5000x128 .f32 0x00000000#32) (ix2 p q)
      = ∑ k : Fin 128, a (ix2 p k) * wt (ix2 q k) := by
  show FloatOps.matmul dot_S5000x128_S128x128_S5000x128_1_0_0_1_n_n none a _ (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact lhs_row _ _
    | ⟨1, _⟩ => exact (lhs_feature _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (rhs_feature _ _).trans hk
    | ⟨1, _⟩ => exact rhs_column _ _)
  rw [el, er, transpose_ix2_apply]

/-- The body's stored value at entry (p, q) of the block, from the three loaded arrays. -/
theorem stored_apply (x0 : Vec Ideal S5000x128 .f32) (x1 : Vec Ideal S128x128 .f32) (x2 : Vec Ideal S128 .f32) (p : Fin 5000) (q : Fin 128) :
    k0_pay1 (F := Ideal) x0 x1 x2 (ix2 p q) = (∑ k : Fin 128, x0 (ix2 p k) * x1 (ix2 q k)) + x2 (ix1 q) := by
  unfold k0_pay1
  show addf (matmul (F := Ideal) dot_S5000x128_S128x128_S5000x128_1_0_0_1_n_n none (truncf .bf16 (shapeCast S5000x128 x0 shapeCasts_S5000x128_S5000x128) bitsLt_bf16_f32)
      (transpose S128x128 [1, 0] (truncf .bf16 x1 bitsLt_bf16_f32) transposes_S128x128_p1_0_S128x128) (constant S5000x128 .f32 0x00000000#32))
    (broadcastTo S5000x128 (shapeCast S1x128 x2 shapeCasts_S128_S1x128) broadcasts_S1x128_S5000x128) (ix2 p q) = _
  rw [addf_apply, product_apply, broadcastTo_1b_ab_apply, shapeCast_a_1a_apply]
  simp only [truncf_apply, shapeCast_self]

/-- Over the grid: the operand's and the result's blocks sit at the same block row, in block column 0; the
    weights' and the bias's one block is at the origin; the block rows stay below 20. -/
theorem index_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 1) = 0 ∧ win0_3.index t (0 : Fin 2) ≤ 19 :=
  (by decide +kernel : ∀ t : Fin grid0.N, _)

/-- Every block row is some point's. -/
theorem index_onto : ∀ q0 : Fin 20, ∃ t : Fin cfg0.N, win0_3.index t = ![q0.val, 0] :=
  (by decide +kernel : ∀ q0 : Fin 20, ∃ t : Fin grid0.N, win0_3.index t = ![q0.val, 0])

/-- What point `t` writes back is block `t` of `linearRows` of the three arrays as the region finds them. -/
theorem flushed_eq (c : Dev nD) (t : Fin cfg0.N) :
    (dat0 V c).flushed 3 t = ((cfg0.win 3).blk t).view.read (Elt Ideal) (linearRows (V c main_v33) (V c main_arg3) (V c main_arg4)) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S128x128) origin2, View.ld_unit_zero (S := S128) origin1]
  obtain ⟨e0, e1, e2, e3, e4, e5, e6⟩ := index_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  -- the row of the whole operand that row `p` of block `t` is
  let r : Fin 100000 := ⟨win0_3.index t (0 : Fin 2) * 5000 + p.val, by omega⟩
  have rd0 : ∀ k : Fin 128, iblk0 V c 0 t (ix2 p k) = V c main_v33 (ix2 r k) := fun k => by
    show V c main_v33 (((cfg0.win 0).blk t).view.emb (ix2 p k)) = V c main_v33 (ix2 r k)
    refine congrArg (V c main_v33) (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 128 + 1 * k.val = k.val; omega
  have rd1 : ∀ k : Fin 128, iblk0 V c 1 t (ix2 q k) = V c main_arg3 (ix2 q k) := fun k => by
    show V c main_arg3 (((cfg0.win 1).blk t).view.emb (ix2 q k)) = V c main_arg3 (ix2 q k)
    refine congrArg (V c main_arg3) (funext fun a => Fin.ext ?_)
    match a with
    | ⟨0, _⟩ => show win0_1.index t (0 : Fin 2) * 128 + 1 * q.val = q.val; omega
    | ⟨1, _⟩ => show win0_1.index t (1 : Fin 2) * 128 + 1 * k.val = k.val; omega
  have rd2 : iblk0 V c 2 t (ix1 q) = V c main_arg4 (ix1 q) := by
    show V c main_arg4 (((cfg0.win 2).blk t).view.emb (ix1 q)) = V c main_arg4 (ix1 q)
    refine congrArg (V c main_arg4) (funext fun a => Fin.ext ?_)
    match a with
    | ⟨0, _⟩ => show win0_2.index t (0 : Fin 1) * 128 + 1 * q.val = q.val; omega
  refine (stored_apply (iblk0 V c 0 t) (iblk0 V c 1 t) (iblk0 V c 2 t) p q).trans ?_
  refine Eq.trans ?_ (linearRows_apply (V c main_v33) (V c main_arg3) (V c main_arg4) (((cfg0.win 3).blk t).view.emb (ix2 p q)) r q ?_ ?_).symm
  · rw [rd2]
    exact congrArg (· + V c main_arg4 (ix1 q)) (Finset.sum_congr rfl fun k _ => by rw [rd0 k, rd1 k])
  · show win0_3.index t (0 : Fin 2) * 5000 + 1 * p.val = win0_3.index t (0 : Fin 2) * 5000 + p.val; omega
  · show win0_3.index t (1 : Fin 2) * 128 + 1 * q.val = q.val; omega

/-- An index of the result is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v34).slice (win0_3.rect t)).set ↔ _
  rw [View.set_slice_whole, Rect.mem_set_unit]
  exact Iff.rfl

/-- Every index of the result is in the block of the point whose block row is its row divided by 5000. -/
theorem covered (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region the result array is `linearRows` of the operand, the weights and the bias as the region found them. -/
theorem result_array (c : Dev nD) :
    (dat0 V c).arrAt 3 cfg0.N = linearRows (V c main_v33) (V c main_arg3) (V c main_arg4) :=
  (dat0 V c).arrAt_eq_of_cover 3 (linearRows (V c main_v33) (V c main_arg3) (V c main_arg4)) (fun t _ => flushed_eq V c t) covered

end Cert.KernelIdeal.Linear

end
-- ==== Proof.Relu.lean ====
/-
  The ReLU region's value. The grid has 25 points; point `t` stages rows `2000·t … 2000·t + 1999` of the
  [50000, 256] operand, takes the maximum of each entry with zero, and writes the block back to the same rows
  of the result. The 25 blocks tile the result, so after the region the result array is the operand clamped
  below at zero, entry by entry, whatever the operand held when the region was entered.
-/
import proofs.«171243_j4346506903598_1_alg».proof.Proof.Gen.KernelIdeal.Frame
import Idealize.ShloMosaic.Lib.Pipeline.Value
import Idealize.ShloMosaic.Lib.ValueIdx

set_option maxRecDepth 16384

noncomputable section

namespace Cert.KernelIdeal.Relu

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- An array clamped below at zero, entry by entry. -/
def clampZero (a : S50000x256.Idx → EReal) : S50000x256.Idx → EReal :=
  fun i => max (a i) (Ideal.ofBits .f32 0x00000000#32)

/-- The body's stored value at an entry of the block: the loaded entry, or zero if that is larger. -/
theorem stored_apply (x0 : FVec Ideal S2000x256 .f32) (j : S2000x256.Idx) :
    k1_pay1 (F := Ideal) x0 j = max (x0 j) (Ideal.ofBits .f32 0x00000000#32) := by
  unfold k1_pay1
  show maximumf (F := Ideal) (shapeCast S2000x256 x0 shapeCasts_S2000x256_S2000x256) (broadcast S2000x256 (Scalar.ofBits (F := Ideal) .f32 0x00000000#32)) j = _
  rw [maximumf_apply, shapeCast_self, broadcast_apply]
  rfl

/-- Over the grid: the operand's and the result's blocks sit at the same block row, in block column 0, and
    the block rows stay below 25. -/
theorem index_facts : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) ≤ 24 :=
  (by decide +kernel : ∀ t : Fin grid1.N, _)

/-- Every block row is some point's. -/
theorem index_onto : ∀ q0 : Fin 25, ∃ t : Fin cfg1.N, win1_1.index t = ![q0.val, 0] :=
  (by decide +kernel : ∀ q0 : Fin 25, ∃ t : Fin grid1.N, win1_1.index t = ![q0.val, 0])

/-- What point `t` writes back is block `t` of the clamped operand. -/
theorem flushed_eq (c : Dev nD) (t : Fin cfg1.N) :
    (dat1 V c).flushed 1 t = ((cfg1.win 1).blk t).view.read (Elt Ideal) (clampZero (V c main_v50)) := by
  show (cfg1.win 1).cut (grid1.coords t) ((dat1 V c).after 1 t) = _
  rw [after1_1]
  unfold out1_1
  rw [View.canon_unit_zero origin2]
  simp only [View.ld_unit_zero (S := S2000x256) origin2]
  obtain ⟨e0, e1, e2, e3⟩ := index_facts t
  funext j
  have rd : iblk1 V c 0 t j = V c main_v50 (((cfg1.win 1).blk t).view.emb j) := by
    show V c main_v50 (((cfg1.win 0).blk t).view.emb j) = V c main_v50 (((cfg1.win 1).blk t).view.emb j)
    refine congrArg (V c main_v50) (funext fun a => Fin.ext ?_)
    match a with
    | ⟨0, _⟩ => show win1_0.index t (0 : Fin 2) * 2000 + 1 * (j 0).val = win1_1.index t (0 : Fin 2) * 2000 + 1 * (j 0).val; omega
    | ⟨1, _⟩ => show win1_0.index t (1 : Fin 2) * 256 + 1 * (j 1).val = win1_1.index t (1 : Fin 2) * 256 + 1 * (j 1).val; omega
  refine (stored_apply (iblk1 V c 0 t) j).trans ?_
  exact congrArg (fun z : EReal => max z (Ideal.ofBits .f32 0x00000000#32)) rd

/-- An index of the result is in point `t`'s block iff each coordinate is in the block's range on its axis. -/
theorem mem_block (t : Fin cfg1.N) (i : S50000x256.Idx) :
    i ∈ ((cfg1.win 1).blk t).view.set ↔ ∀ a : Fin 2, win1_1.index t a * S2000x256.size a ≤ (i a).val ∧ (i a).val < win1_1.index t a * S2000x256.size a + S2000x256.size a := by
  show i ∈ ((View.whole main_v51).slice (win1_1.rect t)).set ↔ _
  rw [View.set_slice_whole, Rect.mem_set_unit]
  exact Iff.rfl

/-- Every index of the result is in the block of the point whose block row is its row divided by 2000. -/
theorem covered (i : S50000x256.Idx) : ∃ t : Fin cfg1.N, (cfg1.win 1).flush t = true ∧ i ∈ ((cfg1.win 1).blk t).view.set := by
  have hi0 : (i 0).val < 50000 := (i 0).isLt
  have hi1 : (i 1).val < 256 := (i 1).isLt
  obtain ⟨t, ht⟩ := index_onto ⟨(i 0).val / 2000, by omega⟩
  have q0 : win1_1.index t (0 : Fin 2) = (i 0).val / 2000 := congrFun ht 0
  have q1 : win1_1.index t (1 : Fin 2) = 0 := congrFun ht 1
  refine ⟨t, flush1_1 t, ?_⟩
  rw [mem_block]
  intro a
  match a with
  | ⟨0, _⟩ => show win1_1.index t (0 : Fin 2) * 2000 ≤ (i 0).val ∧ (i 0).val < win1_1.index t (0 : Fin 2) * 2000 + 2000; omega
  | ⟨1, _⟩ => show win1_1.index t (1 : Fin 2) * 256 ≤ (i 1).val ∧ (i 1).val < win1_1.index t (1 : Fin 2) * 256 + 256; omega

/-- After the region the result array is the operand, as the region found it, clamped below at zero. -/
theorem result_array (c : Dev nD) : (dat1 V c).arrAt 1 cfg1.N = clampZero (V c main_v50) :=
  (dat1 V c).arrAt_eq_of_cover 1 (clampZero (V c main_v50)) (fun t _ => flushed_eq V c t) covered

end Cert.KernelIdeal.Relu

end
-- ==== Proof.HostGlue.lean ====
/-
  The idealized kernel's returned array as a function of the arguments. Reading the boundary contents backwards
  from the return: the last stretch re-lays the ReLU region's [50000, 256] result as [2, 50000, 128]; that
  result is the region's operand clamped below at zero; the operand is the aggregate, computed by the stretch
  between the regions from the edge rows, columns and weights — which the linear-transform region leaves as
  the stretches before it computed them from `edge_index` and `edge_attr` — and from the linear-transform
  region's [100000, 128] result re-laid as [2, 50000, 128]; and that result is rows-times-rows-plus-bias of the
  flattened input, the weights and the bias.
-/
import proofs.«171243_j4346506903598_1_alg».proof.Proof.Gen.KernelIdeal.Frame
import proofs.«171243_j4346506903598_1_alg».proof.Proof.Aggregate
import proofs.«171243_j4346506903598_1_alg».proof.Proof.Linear
import proofs.«171243_j4346506903598_1_alg».proof.Proof.Relu
import Idealize.ShloMosaic.Lib.StableHlo.Run

set_option maxRecDepth 16384
set_option maxHeartbeats 4000000

noncomputable section

namespace Cert.KernelIdeal.Glue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## The three stretches before the linear-transform region, each from ANY contents `V` of the buffers it reads -/

section Stretches
variable (V : Valuation τ sig (Elt Ideal))

theorem first_rows : StableHlo.after hostOps0 V (Proc.devRef .tc main_v3) = Cert.GraphConv.rowsOf (F := Ideal) (V (Proc.devRef .tc main_arg1)) := by
  after_results <;> rfl
theorem first_cols : StableHlo.after hostOps0 V (Proc.devRef .tc main_v6) = Cert.GraphConv.colsOf (F := Ideal) (V (Proc.devRef .tc main_arg1)) := by
  after_results <;> rfl
theorem first_weights : StableHlo.after hostOps0 V (Proc.devRef .tc main_v9) = Cert.GraphConv.weightsOf (F := Ideal) (V (Proc.devRef .tc main_arg2)) := by
  after_results <;> rfl
theorem first_positive : StableHlo.after hostOps0 V (Proc.devRef .tc main_v14)
    = Cert.GraphConv.positiveDegree (F := Ideal) (Cert.GraphConv.rowsOf (V (Proc.devRef .tc main_arg1))) (Cert.GraphConv.weightsOf (V (Proc.devRef .tc main_arg2))) := by
  after_results <;> rfl
theorem first_rsqrt : StableHlo.after hostOps0 V (Proc.devRef .tc main_v15)
    = Cert.GraphConv.rsqrtDegree (F := Ideal) (Cert.GraphConv.rowsOf (V (Proc.devRef .tc main_arg1))) (Cert.GraphConv.weightsOf (V (Proc.devRef .tc main_arg2))) := by
  after_results <;> rfl
theorem first_zero : StableHlo.after hostOps0 V (Proc.devRef .tc main_cst_2) = Cert.GraphConv.zeroScalar (F := Ideal) := by
  after_results <;> rfl

theorem second_where : StableHlo.after hostOps0_1 V (Proc.devRef .tc main_v16)
    = Cert.GraphConv.whereOf (F := Ideal) (V (Proc.devRef .tc main_v14)) (V (Proc.devRef .tc main_v15)) (V (Proc.devRef .tc main_cst_2)) := by
  after_results <;> rfl
theorem second_rows : StableHlo.after hostOps0_1 V (Proc.devRef .tc main_v3) = V (Proc.devRef .tc main_v3) := by
  after_results <;> rfl
theorem second_cols : StableHlo.after hostOps0_1 V (Proc.devRef .tc main_v6) = V (Proc.devRef .tc main_v6) := by
  after_results <;> rfl
theorem second_weights : StableHlo.after hostOps0_1 V (Proc.devRef .tc main_v9) = V (Proc.devRef .tc main_v9) := by
  after_results <;> rfl

theorem third_norm : StableHlo.after hostOps0_2 V (Proc.devRef .tc main_v32)
    = Cert.GraphConv.normCore (F := Ideal) (V (Proc.devRef .tc main_v16)) (V (Proc.devRef .tc main_v3)) (V (Proc.devRef .tc main_v6)) (V (Proc.devRef .tc main_v9)) := by
  after_results <;> rfl

end Stretches

/-! ## What the linear-transform region finds: the stretches before it, read at the buffers later segments use -/

theorem rows_at_entry : W3 m ρ c (Proc.devRef .tc main_v3) = Cert.GraphConv.rowsOf (F := Ideal) (m ((c.tc : Thread nD τ).loc main_arg1)) := by
  show StableHlo.after hostOps0_2 (StableHlo.after hostOps0_1 (StableHlo.after hostOps0 (W0 m ρ c))) (Proc.devRef .tc main_v3) = _
  after_results_simp <;> rfl

theorem cols_at_entry : W3 m ρ c (Proc.devRef .tc main_v6) = Cert.GraphConv.colsOf (F := Ideal) (m ((c.tc : Thread nD τ).loc main_arg1)) := by
  show StableHlo.after hostOps0_2 (StableHlo.after hostOps0_1 (StableHlo.after hostOps0 (W0 m ρ c))) (Proc.devRef .tc main_v6) = _
  after_results_simp <;> rfl

theorem norm_at_entry : W3 m ρ c (Proc.devRef .tc main_v32) = Cert.GraphConv.normOf (F := Ideal) (m ((c.tc : Thread nD τ).loc main_arg1)) (m ((c.tc : Thread nD τ).loc main_arg2)) := by
  show StableHlo.after hostOps0_2 (StableHlo.after hostOps0_1 (StableHlo.after hostOps0 (W0 m ρ c))) (Proc.devRef .tc main_v32) = _
  rw [third_norm, second_where, second_rows, second_cols, second_weights,
    first_positive, first_rsqrt, first_zero, first_rows, first_cols, first_weights]
  rfl

theorem input_at_entry : V3 m ρ c main_v33 = shapeCast _ (m ((c.tc : Thread nD τ).loc main_arg0)) shapeCasts_S2x50000x128_S100000x128 := by
  show StableHlo.after hostOps0_2 (StableHlo.after hostOps0_1 (StableHlo.after hostOps0 (W0 m ρ c))) (Proc.devRef .tc main_v33) = _
  after_results_simp <;> rfl

theorem weights_at_entry : V3 m ρ c main_arg3 = (m ((c.tc : Thread nD τ).loc main_arg3)) := by
  show StableHlo.after hostOps0_2 (StableHlo.after hostOps0_1 (StableHlo.after hostOps0 (W0 m ρ c))) (Proc.devRef .tc main_arg3) = _
  after_results_simp <;> rfl

theorem bias_at_entry : V3 m ρ c main_arg4 = (m ((c.tc : Thread nD τ).loc main_arg4)) := by
  show StableHlo.after hostOps0_2 (StableHlo.after hostOps0_1 (StableHlo.after hostOps0 (W0 m ρ c))) (Proc.devRef .tc main_arg4) = _
  after_results_simp <;> rfl

/-! ## After the linear-transform region -/

/-- The region's result array: rows-times-rows-plus-bias of the flattened input, the weights and the bias. -/
theorem linear_result : W4 m ρ c (Proc.devRef .tc main_v34)
    = Linear.linearRows (shapeCast _ (m ((c.tc : Thread nD τ).loc main_arg0)) shapeCasts_S2x50000x128_S100000x128) (m ((c.tc : Thread nD τ).loc main_arg3)) (m ((c.tc : Thread nD τ).loc main_arg4)) := by
  refine ((W4_arr m ρ c 3).trans (Linear.result_array (V3 m ρ) c)).trans ?_
  rw [input_at_entry, weights_at_entry, bias_at_entry]

/-- The region writes none of the edge buffers. -/
theorem rows_kept : W4 m ρ c (Proc.devRef .tc main_v3) = Cert.GraphConv.rowsOf (F := Ideal) (m ((c.tc : Thread nD τ).loc main_arg1)) :=
  (W4_of_ne m ρ c main_v3 (by decide)).trans (rows_at_entry m ρ c)
theorem cols_kept : W4 m ρ c (Proc.devRef .tc main_v6) = Cert.GraphConv.colsOf (F := Ideal) (m ((c.tc : Thread nD τ).loc main_arg1)) :=
  (W4_of_ne m ρ c main_v6 (by decide)).trans (cols_at_entry m ρ c)
theorem norm_kept : W4 m ρ c (Proc.devRef .tc main_v32) = Cert.GraphConv.normOf (F := Ideal) (m ((c.tc : Thread nD τ).loc main_arg1)) (m ((c.tc : Thread nD τ).loc main_arg2)) :=
  (W4_of_ne m ρ c main_v32 (by decide)).trans (norm_at_entry m ρ c)

/-! ## What the ReLU region finds -/

/-- The stretch between the regions computes the aggregate of what the linear-transform region left. -/
theorem aggregate_at_entry : V5 m ρ c main_v50
    = Cert.GraphConv.aggregateCore (F := Ideal) (W4 m ρ c (Proc.devRef .tc main_v3)) (W4 m ρ c (Proc.devRef .tc main_v6))
        (W4 m ρ c (Proc.devRef .tc main_v32)) (shapeCast _ (W4 m ρ c (Proc.devRef .tc main_v34)) shapeCasts_S100000x128_S2x50000x128) := by
  show StableHlo.after hostOps1 (W4 m ρ c) (Proc.devRef .tc main_v50) = _
  after_results_simp <;> rfl

/-! ## The returned array -/

/-- The linearly transformed features the kernel aggregates: the region's [100000, 128] result as [2, 50000, 128]. -/
def linearFeatures : (⟨S2x50000x128, .f32⟩ : BufTy).Contents (Elt Ideal) :=
  shapeCast _ (Linear.linearRows (shapeCast _ (m ((c.tc : Thread nD τ).loc main_arg0)) shapeCasts_S2x50000x128_S100000x128) (m ((c.tc : Thread nD τ).loc main_arg3)) (m ((c.tc : Thread nD τ).loc main_arg4))) shapeCasts_S100000x128_S2x50000x128

/-- The aggregate the ReLU region clamps. -/
def aggregated : (⟨S50000x256, .f32⟩ : BufTy).Contents (Elt Ideal) :=
  Cert.GraphConv.aggregateCore (F := Ideal) (Cert.GraphConv.rowsOf (m ((c.tc : Thread nD τ).loc main_arg1))) (Cert.GraphConv.colsOf (m ((c.tc : Thread nD τ).loc main_arg1)))
    (Cert.GraphConv.normOf (m ((c.tc : Thread nD τ).loc main_arg1)) (m ((c.tc : Thread nD τ).loc main_arg2))) (linearFeatures m c)

theorem relu_result : W6 m ρ c (Proc.devRef .tc main_v51) = Relu.clampZero (aggregated m c) := by
  refine ((W6_arr m ρ c 1).trans (Relu.result_array (V5 m ρ) c)).trans (congrArg Relu.clampZero ?_)
  rw [aggregate_at_entry, rows_kept, cols_kept, norm_kept, linear_result]
  rfl

/-- The returned array: the clamped aggregate re-laid from [50000, 256] to [2, 50000, 128]. -/
theorem returned : W7 m ρ c (Proc.devRef .tc main_v53)
    = transpose S2x50000x128 [1, 0, 2] (shapeCast _ (Relu.clampZero (aggregated m c)) shapeCasts_S50000x256_S50000x2x128) transposes_S50000x2x128_S2x50000x128_1_0_2 := by
  rw [← relu_result m ρ c]
  show StableHlo.after hostOps2 (W6 m ρ c) (Proc.devRef .tc main_v53) = _
  after_results <;> rfl

end Cert.KernelIdeal.Glue

end
-- ==== Proof.RefSide.lean ====
/-
  The reference's result as the shared pieces: its run ends with the returned array at the ReLU (the maximum
  with zero) of the aggregate, re-laid from [50000, 256] to [2, 50000, 128], where the aggregate is taken of the
  reference's own linear transform of the arguments.
-/
import proofs.«171243_j4346506903598_1_alg».proof.Proof.Gen.ReferenceIdeal.Run
import proofs.«171243_j4346506903598_1_alg».proof.Proof.Aggregate

set_option maxRecDepth 8192

noncomputable section

namespace Cert.ReferenceIdeal.RefValue

open Cert.ReferenceIdeal Cert.ReferenceIdeal.Gen Cert.GraphConv Idealize.ShloMosaic Idealize.ShloMosaic.TcCoe Idealize.SL.Sem

variable {F : FTy → Type} [FloatOps F]

/-- The run's result term is the ReLU of the re-laid aggregate of the reference's linear transform. -/
theorem result_eq (m : (ℓ : Loc nD τ sig) → Buf (Elt F) ℓ) (c : Dev nD) :
    Value.res_main_v54 (F := F) m c
      = maximumf (transpose S2x50000x128 [1, 0, 2] (shapeCast _ (aggregateCore (rowsOf (m ((c.tc : Thread nD τ).loc main_arg1))) (colsOf (m ((c.tc : Thread nD τ).loc main_arg1))) (normOf (m ((c.tc : Thread nD τ).loc main_arg1)) (m ((c.tc : Thread nD τ).loc main_arg2))) (linearOut (m ((c.tc : Thread nD τ).loc main_arg0)) (m ((c.tc : Thread nD τ).loc main_arg3)) (m ((c.tc : Thread nD τ).loc main_arg4)))) shapeCasts_S50000x256_S50000x2x128) transposes_S50000x2x128_S2x50000x128_1_0_2) (broadcastInDim S2x50000x128 ![] bcast_S_S2x50000x128 (constant S_ .f32 0x00000000#32)) := by
  unfold Value.res_main_v54 aggregateCore normOf normCore whereOf positiveDegree rsqrtDegree degreeOf zeroScalar weightsOf rowsOf colsOf linearOut
  rfl

end Cert.ReferenceIdeal.RefValue

end
-- ==== Proof.Bridge.lean ====
/-
  The two places where the programs differ, at the exact arithmetic.

  The linear transform. The kernel flattens the [2, 50000, 128] input to [100000, 128], forms for row `r` and output
  feature `o` the sum `Σ_k x[r, k] · W[o, k] + b[o]`, and re-lays the result as [2, 50000, 128]; the reference
  contracts the feature axis of the unflattened input with the weights' input axis and adds the bias broadcast over
  batches and nodes. Row `r = batch · 50000 + node` of the flattened input is the input's (batch, node) row, so at
  every (batch, node, o) both are the same sum of the same 128 products plus the same bias entry: no law of
  arithmetic is used, only where each operand is read.

  The ReLU. The kernel clamps the [50000, 256] aggregate at zero and then re-lays it as [2, 50000, 128]; the reference
  re-lays first and clamps after. A re-layout only moves entries, so the two orders agree entry by entry.
-/
import proofs.«171243_j4346506903598_1_alg».proof.Proof.Gen.ReferenceIdeal.Read
import proofs.«171243_j4346506903598_1_alg».proof.Proof.Aggregate
import proofs.«171243_j4346506903598_1_alg».proof.Proof.Linear
import proofs.«171243_j4346506903598_1_alg».proof.Proof.Relu
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.ValueIdx

section Linear
open Cert.KernelIdeal Cert.KernelIdeal.Gen

/-- The kernel's linearly transformed features are the reference's, at every (batch, node, output feature). -/
theorem features_eq (x : (⟨S2x50000x128, .f32⟩ : BufTy).Contents (Elt Ideal)) (w : (⟨S128x128, .f32⟩ : BufTy).Contents (Elt Ideal))
    (b : (⟨S128, .f32⟩ : BufTy).Contents (Elt Ideal)) :
    shapeCast S2x50000x128 (Cert.KernelIdeal.Linear.linearRows (shapeCast S100000x128 x shapeCasts_S2x50000x128_S100000x128) w b) shapeCasts_S100000x128_S2x50000x128
      = Cert.GraphConv.linearOut (F := Ideal) x w b := by
  funext i
  obtain ⟨bb, n, f, rfl⟩ : ∃ (bb : Fin 2) (n : Fin 50000) (f : Fin 128), i = ix3 bb n f := ⟨i 0, i 1, i 2, eq_ix3 i⟩
  have hbb : bb.val < 2 := bb.isLt
  have hn : n.val < 50000 := n.isLt
  -- the row of the flattened input that holds the input's (batch, node) row
  let r : Fin 100000 := ⟨bb.val * 50000 + n.val, by omega⟩
  have flat : ∀ k : Fin 128, shapeCast S100000x128 x shapeCasts_S2x50000x128_S100000x128 (ix2 r k) = x (ix3 bb n k) := fun k =>
    shapeCast_apply x shapeCasts_S2x50000x128_S100000x128 (ix2 r k) (ix3 bb n k) (by
      rw [Shape.rowMajor_val_three, Shape.rowMajor_val_two]
      show (bb.val * 50000 + n.val) * 128 + k.val = (bb.val * 50000 + n.val) * 128 + k.val
      rfl)
  have kernelSide : shapeCast S2x50000x128 (Cert.KernelIdeal.Linear.linearRows (shapeCast S100000x128 x shapeCasts_S2x50000x128_S100000x128) w b) shapeCasts_S100000x128_S2x50000x128 (ix3 bb n f)
      = (∑ k : Fin 128, x (ix3 bb n k) * w (ix2 f k)) + b (ix1 f) := by
    rw [shapeCast_apply (Cert.KernelIdeal.Linear.linearRows (shapeCast S100000x128 x shapeCasts_S2x50000x128_S100000x128) w b) shapeCasts_S100000x128_S2x50000x128 (ix3 bb n f) (ix2 r f) (by
      rw [Shape.rowMajor_val_three, Shape.rowMajor_val_two]
      show (bb.val * 50000 + n.val) * 128 + f.val = (bb.val * 50000 + n.val) * 128 + f.val
      rfl)]
    rw [Cert.KernelIdeal.Linear.linearRows_apply _ w b (ix2 r f) r f rfl rfl]
    simp only [flat]
  have referenceSide : Cert.GraphConv.linearOut (F := Ideal) x w b (ix3 bb n f) = (∑ k : Fin 128, x (ix3 bb n k) * w (ix2 f k)) + b (ix1 f) := by
    show Cert.ReferenceIdeal.Read.val_main_v36 (F := Ideal) x w b (ix3 bb n f) = _
    rw [Cert.ReferenceIdeal.Read.val_main_v36_apply, Cert.ReferenceIdeal.Read.val_main_v33_apply, Cert.ReferenceIdeal.Read.val_main_v35_apply,
      Cert.ReferenceIdeal.Read.val_main_v34_apply]
    have e1 : ∀ k : Fin 128, Cert.ReferenceIdeal.Read.lidx_main_v33 (ix3 bb n f) k = ix3 bb n k := fun k => funext fun a => by
      match a with | ⟨0, _⟩ => rfl | ⟨1, _⟩ => rfl | ⟨2, _⟩ => rfl
    have e2 : ∀ k : Fin 128, Cert.ReferenceIdeal.Read.ridx_main_v33 (ix3 bb n f) k = ix2 f k := fun k => funext fun a => by
      match a with | ⟨0, _⟩ => rfl | ⟨1, _⟩ => rfl
    have e3 : Cert.ReferenceIdeal.Read.idx_main_v34 (Cert.ReferenceIdeal.Read.idx_main_v35 (ix3 bb n f)) = ix1 f := funext fun a => by
      match a with | ⟨0, _⟩ => rfl
    simp only [e1, e2, e3]
    rfl
  exact kernelSide.trans referenceSide.symm

end Linear

section Relu
open Cert.ReferenceIdeal Cert.ReferenceIdeal.Gen

/-- Clamping at zero and then re-laying [50000, 256] as [2, 50000, 128] is re-laying and then taking the maximum with zero. -/
theorem relu_relayout (a : (⟨S50000x256, .f32⟩ : BufTy).Contents (Elt Ideal)) :
    transpose S2x50000x128 [1, 0, 2] (shapeCast S50000x2x128 (Cert.KernelIdeal.Relu.clampZero a) shapeCasts_S50000x256_S50000x2x128) transposes_S50000x2x128_S2x50000x128_1_0_2
      = maximumf (F := Ideal) (transpose S2x50000x128 [1, 0, 2] (shapeCast S50000x2x128 a shapeCasts_S50000x256_S50000x2x128) transposes_S50000x2x128_S2x50000x128_1_0_2)
          (broadcastInDim S2x50000x128 ![] bcast_S_S2x50000x128 (constant (F := Ideal) S_ .f32 0x00000000#32)) := by
  funext i
  rfl

end Relu

end Cert.Bridge

end
-- ==== Proof.Equal.lean ====
/-
  The two results are one array. With the arguments agreeing, the reference's result — the ReLU of the re-laid
  aggregate of its own linear transform — is the kernel's returned array — the re-laid clamp of the aggregate of
  the kernel's linear transform: the linear transforms agree (`Bridge.features_eq`), the aggregate is the same
  function of the same edge data on both sides, and the clamp commutes with the re-layout (`Bridge.relu_relayout`).
-/
import proofs.«171243_j4346506903598_1_alg».proof.Proof.HostGlue
import proofs.«171243_j4346506903598_1_alg».proof.Proof.RefSide
import proofs.«171243_j4346506903598_1_alg».proof.Proof.Bridge

set_option maxRecDepth 16384

noncomputable section

namespace Cert.Equal

open Idealize.ShloMosaic Idealize.ShloMosaic.TcCoe Idealize.SL.Sem

/-- The kernel's linearly transformed features are the reference's linear transform of the same arguments. -/
theorem features (m : (ℓ : Loc Cert.KernelIdeal.nD Cert.KernelIdeal.τ Cert.KernelIdeal.sig) → Buf (Elt Ideal) ℓ) (c : Dev Cert.KernelIdeal.nD) :
    Cert.KernelIdeal.Glue.linearFeatures m c
      = Cert.GraphConv.linearOut (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  unfold Cert.KernelIdeal.Glue.linearFeatures
  exact Cert.Bridge.features_eq _ _ _

/-- From memories agreeing on the five arguments, the reference's result term is the kernel's returned array. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v54 (F := Ideal) m' c
      = transpose Cert.KernelIdeal.S2x50000x128 [1, 0, 2]
          (shapeCast _ (Cert.KernelIdeal.Relu.clampZero (Cert.KernelIdeal.Glue.aggregated m c)) Cert.KernelIdeal.Gen.shapeCasts_S50000x256_S50000x2x128)
          Cert.KernelIdeal.Gen.transposes_S50000x2x128_S2x50000x128_1_0_2 := by
  rw [Cert.ReferenceIdeal.RefValue.result_eq, h0, h1, h2, h3, h4, ← features m c]
  exact (Cert.Bridge.relu_relayout (Cert.KernelIdeal.Glue.aggregated m c)).symm

end Cert.Equal

end
-- ==== Proof.lean ====
/-
  A graph-convolution layer, `relu(Â · (x Wᵀ + b))` with `Â` the symmetrically normalised adjacency with
  self-loops, as two Pallas regions among host operations — a tiled matrix product with bf16 operands for
  `x Wᵀ + b` over the flattened [100000, 128] input, the gather / scatter-add aggregation on the host, and a
  tiled ReLU over the [50000, 256] aggregate — against the same layer written in jax.numpy with one
  `dot_general` and a ReLU after the final re-layout.

  Over the extended reals the two agree for every input: a change of float format is the identity, the
  region's matrix product into a zero accumulator and the host's `dot_general` are the same sum of 128
  products at every (batch, node, output feature), the normalisation and the aggregation are the same host
  operations applied to the same values, and taking the maximum with zero commutes with moving entries.
  No law of arithmetic beyond reading each operand at the right index is needed, so the finiteness of the
  inputs is never used.

  The three frames are the generated ones (the reference's is its generated run with the result dropped);
  the idealization rewrote no operation, so `preserves` holds trivially. The kernel's run is re-posted with
  the returned array named (KernelRun), that array is read back through the segments (HostGlue, over the two
  regions' values in Linear and Relu), the reference's result is cut into the same pieces (Aggregate,
  RefSide), and Bridge and Equal join them.
-/
import proofs.«171243_j4346506903598_1_alg».proof.Defs
import proofs.«171243_j4346506903598_1_alg».proof.Proof.Gen.Kernel
import proofs.«171243_j4346506903598_1_alg».proof.Proof.Gen.Kernel.Skeleton
import proofs.«171243_j4346506903598_1_alg».proof.Proof.Gen.Kernel.Launch
import proofs.«171243_j4346506903598_1_alg».proof.Proof.Gen.Kernel.Points
import proofs.«171243_j4346506903598_1_alg».proof.Proof.Gen.Kernel.Frame
import proofs.«171243_j4346506903598_1_alg».proof.Proof.Gen.KernelIdeal
import proofs.«171243_j4346506903598_1_alg».proof.Proof.Gen.KernelIdeal.Skeleton
import proofs.«171243_j4346506903598_1_alg».proof.Proof.Gen.KernelIdeal.Launch
import proofs.«171243_j4346506903598_1_alg».proof.Proof.Gen.KernelIdeal.Points
import proofs.«171243_j4346506903598_1_alg».proof.Proof.Gen.KernelIdeal.Frame
import proofs.«171243_j4346506903598_1_alg».proof.Proof.Gen.ReferenceIdeal
import proofs.«171243_j4346506903598_1_alg».proof.Proof.Gen.Pre_finite_inputs
import proofs.«171243_j4346506903598_1_alg».proof.Proof.Gen.ReferenceIdeal.Run
import proofs.«171243_j4346506903598_1_alg».proof.Proof.Gen.ReferenceIdeal.Read
import proofs.«171243_j4346506903598_1_alg».proof.Proof.KernelRun
import proofs.«171243_j4346506903598_1_alg».proof.Proof.HostGlue
import proofs.«171243_j4346506903598_1_alg».proof.Proof.Equal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the returned array at the re-laid clamp of the aggregate of the kernel's linear transform:
    the kernel's by reading its segments back, the reference's because its result term is that array when the
    arguments agree. -/
theorem algebraic : Cert.algebraic_KernelIdeal_ReferenceIdeal := by
  intro m ρ m' ρ' _ hagree
  refine ⟨fun c => transpose Cert.KernelIdeal.S2x50000x128 [1, 0, 2]
      (shapeCast _ (Cert.KernelIdeal.Relu.clampZero (Cert.KernelIdeal.Glue.aggregated m c)) Cert.KernelIdeal.Gen.shapeCasts_S50000x256_S50000x2x128)
      Cert.KernelIdeal.Gen.transposes_S50000x2x128_S2x50000x128_1_0_2, ?_, ?_⟩
  · exact (θ_run Cert.KernelIdeal.defs _ _).mono
      (fun r h c => ⟨(h c).1.trans (Cert.KernelIdeal.Glue.returned m ρ c), (h c).2⟩)
      (Cert.KernelIdeal.Out.run_out (F := Ideal) m ρ)
  · exact (θ_run Cert.ReferenceIdeal.defs _ _).mono
      (fun r h c => ⟨(h c).1.trans (Cert.Equal.results m m' c (hagree c).1 (hagree c).2.1 (hagree c).2.2.1 (hagree c).2.2.2.1 (hagree c).2.2.2.2), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
